-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S8192x128 : Shape := ⟨2, ![8192, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_

variable [Facts]

def fn {F : FTy → Type} [FloatOps F] (main_arg0 : FVec F S16384x128 .f32) (main_arg1 : FVec F S8192x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S16384x128 : Shape := ⟨2, ![16384, 128]⟩
abbrev S8192x128 : Shape := ⟨2, ![8192, 128]⟩
abbrev S_ : Shape := ⟨0, ![]⟩
abbrev S8192 : Shape := ⟨1, ![8192]⟩
abbrev S1x8192 : Shape := ⟨2, ![1, 8192]⟩
abbrev S16384x1 : Shape := ⟨2, ![16384, 1]⟩
abbrev S1024x128 : Shape := ⟨2, ![1024, 128]⟩
abbrev S1024x1 : Shape := ⟨2, ![1024, 1]⟩
abbrev S1024 : Shape := ⟨1, ![1024]⟩
abbrev S1x1024 : Shape := ⟨2, ![1, 1024]⟩
abbrev S128x1024 : Shape := ⟨2, ![128, 1024]⟩
abbrev S1024x1024 : Shape := ⟨2, ![1024, 1024]⟩
abbrev S16384 : Shape := ⟨1, ![16384]⟩

abbrev nBuf : Space → Nat
  | .hbm => 8
  | .vmem => 7
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S1x8192, .f32⟩
  | .hbm, ⟨6, _⟩ => ⟨S16384x1, .f32⟩
  | .hbm, ⟨7, _⟩ => ⟨S16384, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1x8192, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v9 : BitVec 32 := Scalar.muli c0_i32 c1024_i32
  v9
def k0_off1 (c0_i32 : BitVec 32) : Fin 2 → Nat :=
  let c1024_i32 : BitVec 32 := 1024#32
  let v9 : BitVec 32 := Scalar.muli c0_i32 c1024_i32
  let v10 : BitVec 32 := v9
  let v11 : Index := Scalar.indexCast v10
  let c0_4 : Index := 0#32
  ![v11.toNat, 0]
def k0_off2 (c0_i32 : BitVec 32) : Fin 2 → Nat :=
  let c0_5 : Index := 0#32
  let c1024_i32 : BitVec 32 := 1024#32
  let v9 : BitVec 32 := Scalar.muli c0_i32 c1024_i32
  let v10 : BitVec 32 := v9
  let v13 : Index := Scalar.indexCast v10
  ![0, v13.toNat]
def k0_mult2 : BitVec 32 :=
  let c1_i32 : BitVec 32 := 1#32
  let c1024_i32_13 : BitVec 32 := 1024#32
  let v30 : BitVec 32 := Scalar.muli c1_i32 c1024_i32_13
  v30
def k0_mult3 : BitVec 32 :=
  let c2_i32 : BitVec 32 := 2#32
  let c1024_i32_23 : BitVec 32 := 1024#32
  let v51 : BitVec 32 := Scalar.muli c2_i32 c1024_i32_23
  v51
def k0_mult4 : BitVec 32 :=
  let c3_i32 : BitVec 32 := 3#32
  let c1024_i32_33 : BitVec 32 := 1024#32
  let v72 : BitVec 32 := Scalar.muli c3_i32 c1024_i32_33
  v72
def k0_mult5 : BitVec 32 :=
  let c4_i32 : BitVec 32 := 4#32
  let c1024_i32_43 : BitVec 32 := 1024#32
  let v93 : BitVec 32 := Scalar.muli c4_i32 c1024_i32_43
  v93
def k0_mult6 : BitVec 32 :=
  let c5_i32 : BitVec 32 := 5#32
  let c1024_i32_53 : BitVec 32 := 1024#32
  let v114 : BitVec 32 := Scalar.muli c5_i32 c1024_i32_53
  v114
def k0_mult7 : BitVec 32 :=
  let c6_i32 : BitVec 32 := 6#32
  let c1024_i32_63 : BitVec 32 := 1024#32
  let v135 : BitVec 32 := Scalar.muli c6_i32 c1024_i32_63
  v135
def k0_mult8 : BitVec 32 :=
  let c7_i32 : BitVec 32 := 7#32
  let c1024_i32_73 : BitVec 32 := 1024#32
  let v156 : BitVec 32 := Scalar.muli c7_i32 c1024_i32_73
  v156
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S8192x128_S8192_d1 : S8192x128.ReducesTo [1] S8192
  h_S_ : 0 < S_.numel
  bcast_S8192_S1x8192_1 : S8192.BroadcastsInDim S1x8192 (![1] : Fin 1 → Fin S1x8192.rank)
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  transposes_S1024x128_p1_0_S128x1024 : S1024x128.Transposes [1, 0] S128x1024
  broadcasts_S1x1024_S1024x1024 : S1x1024.Broadcasts S1024x1024
  reduces_S1024x1024_S1024 : S1024x1024.Reduces [1] S1024
  shapeCasts_S16384x1_S16384 : S16384x1.ShapeCasts S16384
  dot_S1024x128_S128x1024_S1024x1024_1_0_0_1_n_n_wf : DotDims.WF S1024x128 S128x1024 S1024x1024 [1] [0] [0] [1] [] []
  hrank0 : 0 < grid0.rank
  k0_mult1_dvd : 1024 ∣ k0_mult1.toNat
  k0_off1_inb : ∀ (r : Fin 8), ∀ a, (k0_off1 (BitVec.ofNat 32 r.val)) a + S1024x128.size a ≤ S8192x128.size a
  k0_off2_inb : ∀ (r : Fin 8), ∀ a, (k0_off2 (BitVec.ofNat 32 r.val)) a + S1x1024.size a ≤ S1x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .f32 = 32 ∨ (Rect.block (s := S16384x1) S1024x1.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x128 : Shape := ⟨2, ![16384, 128]⟩
abbrev S8192x128 : Shape := ⟨2, ![8192, 128]⟩
abbrev S_ : Shape := ⟨0, ![]⟩
abbrev S16384 : Shape := ⟨1, ![16384]⟩
abbrev S16384x1 : Shape := ⟨2, ![16384, 1]⟩
abbrev S8192 : Shape := ⟨1, ![8192]⟩
abbrev S1x8192 : Shape := ⟨2, ![1, 8192]⟩
abbrev S16384x8192 : Shape := ⟨2, ![16384, 8192]⟩
abbrev S128x8192 : Shape := ⟨2, ![128, 8192]⟩

abbrev nBuf : Space → Nat
  | .hbm => 31
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S8192x128, .f32⟩
  | .hbm, ⟨2, _⟩ => ⟨S16384x128, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S128x8192, .f32⟩
  | .hbm, ⟨14, _⟩ => ⟨S16384x8192, .f32⟩
  | .hbm, ⟨15, _⟩ => ⟨S_, .f32⟩
  | .hbm, ⟨16, _⟩ => ⟨S16384x8192, .f32⟩
  | .hbm, ⟨17, _⟩ => ⟨S16384x8192, .f32⟩
  | .hbm, ⟨18, _⟩ => ⟨S16384x8192, .f32⟩
  | .hbm, ⟨19, _⟩ => ⟨S_, .f32⟩
  | .hbm, ⟨20, _⟩ => ⟨S16384x8192, .f32⟩
  | .hbm, ⟨21, _⟩ => ⟨S16384x8192, .f32⟩
  | .hbm, ⟨22, _⟩ => ⟨S16384x8192, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S16384x128_S16384_d1 : S16384x128.ReducesTo [1] S16384
  h_S_ : 0 < S_.numel
  bcast_S16384_S16384x1_0 : S16384.BroadcastsInDim S16384x1 (![0] : Fin 1 → Fin S16384x1.rank)
  reducesTo_S8192x128_S8192_d1 : S8192x128.ReducesTo [1] S8192
  bcast_S8192_S1x8192_1 : S8192.BroadcastsInDim S1x8192 (![1] : Fin 1 → Fin S1x8192.rank)
  bcast_S16384x1_S16384x8192_0_1 : S16384x1.BroadcastsInDim S16384x8192 (![0, 1] : Fin 2 → Fin S16384x8192.rank)
  bcast_S1x8192_S16384x8192_0_1 : S1x8192.BroadcastsInDim S16384x8192 (![0, 1] : Fin 2 → Fin S16384x8192.rank)
  transposes_S8192x128_S128x8192_1_0 : S8192x128.Transposes [1, 0] S128x8192
  bcast_S_S16384x8192 : S_.BroadcastsInDim S16384x8192 (![] : Fin 0 → Fin S16384x8192.rank)
  reducesTo_S16384x8192_S16384_d1 : S16384x8192.ReducesTo [1] S16384
  bcast_S_S16384 : S_.BroadcastsInDim S16384 (![] : Fin 0 → Fin S16384.rank)
  dot_S16384x128_S128x8192_S16384x8192_1_0_0_1_n_n_wf : DotDims.WF S16384x128 S128x8192 S16384x8192 [1] [0] [0] [1] [] []

variable [Facts₀]

def dot_S16384x128_S128x8192_S16384x8192_1_0_0_1_n_n : DotDims S16384x128 S128x8192 S16384x8192 where
  lhsContracting := [1]
  rhsContracting := [0]
  lhsNonContracting := [0]
  rhsNonContracting := [1]
  lhsBatch := []
  rhsBatch := []
  wf := dot_S16384x128_S128x8192_S16384x8192_1_0_0_1_n_n_wf

class Facts : Prop extends Facts₀ where

variable [Facts]
-- ==== Proof.LibReadBack.lean ====
/-
  A buffer read back after stores.

  When the last store to a buffer went through the rectangle of the buffer's whole shape, a load through that rectangle reads
  that store's payload, whatever was stored before: an accumulator kept in a buffer and rewritten whole at every step reads
  back, at each step, exactly what the previous step stored. (The library states this for a single store; this is the form
  for a store that follows others.) Library imports only.
-/
import Idealize.ShloMosaic.Lib.Pipeline.Value

noncomputable section

namespace Cert.LibReadBack

open Idealize.ShloMosaic

/-- A load through the whole-shape rectangle of what a LAST store through it left reads that store's payload, whatever the
    earlier stores were. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.LibReadBack

end
-- ==== Proof.BodyTerm.lean ====
/-
  What one grid point of the kernel leaves in its output block, as one term of the blocks it was handed.

  A grid point receives 1024 rows of `x`, the whole of `s` and the row vector `b2` of the squared norms of `s`'s rows. It keeps
  a column accumulator in scratch memory: set to +∞, then lowered eight times, once per block of 1024 rows of `s`, to the
  minimum of itself and that block's candidate minimum; at the end the row's own squared norm is added, the sum is clamped at
  zero, rooted, shifted by the radius and clamped again. Every read of the accumulator returns what the last store put
  there, whatever was stored before: the eight read-backs collapse and the stored column is the nested term `body` below.
-/
import proofs.«135968_j87780541595761_2_alg».proof.Proof.Gen.KernelIdeal.Frame
import proofs.«135968_j87780541595761_2_alg».proof.Proof.LibReadBack
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.BodyTerm

open Cert.KernelIdeal Cert.KernelIdeal.Gen

variable {F : FTy → Type} [FloatOps F]

theorem hz : (![0, 0] : Fin 2 → Nat) = fun _ => 0 := funext fun a => by fin_cases a <;> rfl

/-- Rows `off … off + 1023` of `s`. -/
abbrev sRows (x1 : Vec F S8192x128 .f32) (off : Nat)
    (h : ∀ a, (![off, 0] : Fin 2 → Nat) a + S1024x128.size a ≤ S8192x128.size a) : Vec F S1024x128 .f32 :=
  View.ld x1 (Rect.unit ![off, 0] S1024x128.size h)

/-- Entries `off … off + 1023` of the row vector `b2`. -/
abbrev bCols (x2 : Vec F S1x8192 .f32) (off : Nat)
    (h : ∀ a, (![0, off] : Fin 2 → Nat) a + S1x1024.size a ≤ S1x8192.size a) : Vec F S1x1024 .f32 :=
  View.ld x2 (Rect.unit ![0, off] S1x1024.size h)

/-- The column a grid point stores: the final arithmetic over the row norms and the accumulator after its eight lowerings. -/
def body (x0 : Vec F S1024x128 .f32) (x1 : Vec F S8192x128 .f32) (x2 : Vec F S1x8192 .f32) : FVec F S1024x1 .f32 :=
  k0_pay14 (k0_pay1 x0)
    (k0_pay13 (k0_pay2 x0) (sRows x1 7168 (by decide)) (bCols x2 7168 (by decide))
    (k0_pay12 (k0_pay11 (k0_pay2 x0) (sRows x1 6144 (by decide)) (bCols x2 6144 (by decide)))
    (k0_pay10 (k0_pay2 x0) (sRows x1 5120 (by decide)) (bCols x2 5120 (by decide))
    (k0_pay9 (k0_pay8 (k0_pay2 x0) (sRows x1 4096 (by decide)) (bCols x2 4096 (by decide))
    (k0_pay7 (k0_pay2 x0) (sRows x1 3072 (by decide)) (bCols x2 3072 (by decide))
    (k0_pay6 (k0_pay2 x0) (sRows x1 2048 (by decide)) (bCols x2 2048 (by decide))
    (k0_pay5 (k0_pay2 x0) (sRows x1 1024 (by decide)) (bCols x2 1024 (by decide))
    (k0_pay4 x0 (sRows x1 0 (by decide)) (bCols x2 0 (by decide)) k0_pay3)))))))))

/-- The output block after the body is that column. -/
theorem out_eq_body (c : Dev nD) (i : grid0.Coords) (arg1 : Memref sig .tc .vmem S1024x128 .f32) (harg1 : arg1.IsWhole) (arg2 : Memref sig .tc .vmem S8192x128 .f32) (harg2 : arg2.IsWhole) (arg3 : Memref sig .tc .vmem S1x8192 .f32) (harg3 : arg3.IsWhole) (arg4 : Memref sig .tc .vmem S1024x1 .f32) (harg4 : arg4.IsWhole) (arg5 : Memref sig .tc .vmem S1024x1 .f32) (harg5 : arg5.IsWhole)
    (x0 : Vec F S1024x128 .f32) (x1 : Vec F S8192x128 .f32) (x2 : Vec F S1x8192 .f32) :
    out0_A_3 c i arg1 harg1 arg2 harg2 arg3 harg3 arg4 harg4 arg5 harg5 x0 x1 x2 = body x0 x1 x2 := by
  unfold out0_A_3
  rw [View.read_writes_eq_canon _ _ _ (cover0_A_3 c i arg1 harg1 arg2 harg2 arg3 harg3 arg4 harg4 arg5 harg5 x0 x1 x2)]
  unfold kernelRun0_A
  dsimp only
  sl_unfold_words
  rw [View.canon_unit_zero hz]
  simp only [Cert.LibReadBack.readCov_cons_unit_zero (S := S1024x1) _ hz, View.readAt_eq_ld, harg1.read_unread, harg2.read_unread, harg3.read_unread,
    View.ld_unit_zero (S := S1024x128) hz]
  rfl

end Cert.KernelIdeal.BodyTerm

end
-- ==== Proof.LibMinFold.lean ====
/-
  Minima of finite families of extended reals.

  Three facts. (1) The square root on the extended reals (bottom below zero, the real root from zero on, top at top) is
  monotone. (2) A monotone map commutes with the minimum of a nonempty finite family: the fold of `min` from top over
  `h ∘ t` is `h` of the fold over `t` — the top a fold starts from is absorbed by the family's first member, so nothing is
  asked of `h ⊤`. (3) A family indexed by eight blocks of a common length has as its minimum the running minimum, from
  top, of the eight block minima. Together: the least of the distances `√(max (a + b j - w j) z)` is the distance at the least
  `b j - w j`, the row's own term `a` added once at the end.
-/
import Idealize.ShloMosaic.PureOps.Ideal

noncomputable section

namespace Cert.LibMinFold

open Idealize.ShloMosaic

/-- The extended square root is monotone. -/
theorem sqrt_mono : Monotone Ideal.sqrt := by
  intro x y h
  induction x using EReal.rec with
  | bot => exact bot_le
  | top =>
    have hy : y = ⊤ := top_le_iff.mp h
    subst hy; exact le_rfl
  | coe r =>
    induction y using EReal.rec with
    | bot => exact absurd h (by simp)
    | top => exact le_top
    | coe q =>
      have hrq : r ≤ q := EReal.coe_le_coe_iff.mp h
      simp only [Ideal.sqrt_coe]
      split_ifs with h1 h2 h2
      · exact le_rfl
      · exact bot_le
      · exact absurd (lt_of_le_of_lt hrq h2) h1
      · exact EReal.coe_le_coe_iff.mpr (Real.sqrt_le_sqrt hrq)

/-- A monotone map commutes with the minimum of a nonempty finite family. -/
theorem fold_min_map {ι : Type*} (h : EReal → EReal) (hm : Monotone h) (s : Finset ι) (hs : s.Nonempty) (t : ι → EReal) :
    s.fold min ⊤ (fun j => h (t j)) = h (s.fold min ⊤ t) := by
  induction hs using Finset.Nonempty.cons_induction with
  | singleton a => simp only [Finset.fold_singleton, min_top_right]
  | cons a s ha _ ih => rw [Finset.fold_cons, Finset.fold_cons, ih, hm.map_min]

/-- The distance law: with the row's own term `a` and a floor `z`, the least of `√(max ((a + b j) - w j) z)` over a nonempty
    family is `√(max (m + a) z)` at the least `m` of `b j - w j`. Only commutativity and associativity of the extended sum and
    monotonicity are used, so no finiteness is asked. -/
theorem min_sqrt_law {ι : Type*} [Fintype ι] [Nonempty ι] (a z : EReal) (b w : ι → EReal) :
    (Finset.univ : Finset ι).fold min ⊤ (fun j => Ideal.sqrt (max ((a + b j) - w j) z))
      = Ideal.sqrt (max ((Finset.univ : Finset ι).fold min ⊤ (fun j => b j - w j) + a) z) := by
  have hm : Monotone fun y : EReal => Ideal.sqrt (max (y + a) z) := fun y y' hy =>
    sqrt_mono (max_le_max (add_le_add hy le_rfl) le_rfl)
  rw [← fold_min_map (fun y : EReal => Ideal.sqrt (max (y + a) z)) hm Finset.univ Finset.univ_nonempty]
  refine congrArg (fun f => Finset.fold min ⊤ f (Finset.univ : Finset ι)) (funext fun j => ?_)
  show Ideal.sqrt (max ((a + b j) - w j) z) = Ideal.sqrt (max ((b j - w j) + a) z)
  rw [sub_eq_add_neg, sub_eq_add_neg, add_comm a (b j), add_right_comm]

/-- Eight blocks: if every index of `ι` is `cat c k` for a block `c` and a place `k`, the running minimum from top of the
    eight block minima is the minimum of the whole family. -/
theorem min_of_eight_blocks {ι κ : Type*} [Fintype ι] [Fintype κ] (t : ι → EReal) (cat : Fin 8 → κ → ι)
    (hcat : ∀ j, ∃ c k, cat c k = j) :
    min (min (min (min (min (min (min (min ⊤
      ((Finset.univ : Finset κ).fold min ⊤ fun k => t (cat 0 k)))
      ((Finset.univ : Finset κ).fold min ⊤ fun k => t (cat 1 k)))
      ((Finset.univ : Finset κ).fold min ⊤ fun k => t (cat 2 k)))
      ((Finset.univ : Finset κ).fold min ⊤ fun k => t (cat 3 k)))
      ((Finset.univ : Finset κ).fold min ⊤ fun k => t (cat 4 k)))
      ((Finset.univ : Finset κ).fold min ⊤ fun k => t (cat 5 k)))
      ((Finset.univ : Finset κ).fold min ⊤ fun k => t (cat 6 k)))
      ((Finset.univ : Finset κ).fold min ⊤ fun k => t (cat 7 k))
      = (Finset.univ : Finset ι).fold min ⊤ t := by
  refine eq_of_forall_le_iff fun y => ?_
  simp only [le_min_iff, Finset.le_fold_min, le_top, true_and, Finset.mem_univ, forall_true_left]
  constructor
  · rintro ⟨⟨⟨⟨⟨⟨⟨h0, h1⟩, h2⟩, h3⟩, h4⟩, h5⟩, h6⟩, h7⟩ j
    obtain ⟨c, k, rfl⟩ := hcat j
    fin_cases c
    · exact h0 k
    · exact h1 k
    · exact h2 k
    · exact h3 k
    · exact h4 k
    · exact h5 k
    · exact h6 k
    · exact h7 k
  · intro hall
    exact ⟨⟨⟨⟨⟨⟨⟨fun k => hall _, fun k => hall _⟩, fun k => hall _⟩, fun k => hall _⟩, fun k => hall _⟩, fun k => hall _⟩,
      fun k => hall _⟩, fun k => hall _⟩

end Cert.LibMinFold

end
-- ==== Proof.DistSpec.lean ====
/-
  The anomaly score as one function of the arrays.

  For a row `n` of `x` and a row `j` of `s`, with `b (0, j)` the squared norm of row `j` of `s`, the candidate is
  `b (0, j) - 2 · Σ_d x(n,d) · s(j,d)`; the score of row `n` is `max (√(max (min_j candidate + Σ_d x(n,d)²) 0) - radius) 0`.
  The reference takes the root of every clamped squared distance `(0 + Σ_d x(n,d)²) + b (0, j) - 2 · Σ_d x(n,d) · s(j,d)` first and
  the minimum after; the two arrangements agree because `y ↦ √(max (y + a) 0)` is monotone and the sum is commutative.
-/
import proofs.«135968_j87780541595761_2_alg».proof.Proof.LibMinFold
import Idealize.ShloMosaic.PureOps.Ideal.Laws
import Idealize.ShloMosaic.Lib.ValueIdx

noncomputable section

namespace Cert.DistSpec

open Idealize.ShloMosaic Idealize.ShloMosaic.ValueIdx

/-- The literal 2. -/
abbrev two : EReal := Ideal.ofBits .f32 0x40000000#32
/-- The literal 0. -/
abbrev zero : EReal := Ideal.ofBits .f32 0x00000000#32
/-- The radius. -/
abbrev rad : EReal := Ideal.ofBits .f32 0x3DCCCCCD#32

/-- The pattern of +∞ denotes the top of the extended reals. -/
theorem top_eq : Ideal.ofBits .f32 0x7F800000#32 = ⊤ := by simp [Ideal.ofBits, Ideal.ieee]

variable {N : ℕ}

/-- The squared norm of row `n`. -/
def sqn (x : (⟨2, ![N, 128]⟩ : Shape).Idx → EReal) (n : Fin N) : EReal := ∑ d : Fin 128, x (ix2 n d) * x (ix2 n d)

/-- The candidate of row `n` of `x` against row `j` of `s`. -/
def cand (x : (⟨2, ![N, 128]⟩ : Shape).Idx → EReal) (s : (⟨2, ![8192, 128]⟩ : Shape).Idx → EReal)
    (b : (⟨2, ![1, 8192]⟩ : Shape).Idx → EReal) (n : Fin N) (j : Fin 8192) : EReal :=
  b (ix2 (0 : Fin 1) j) - two * ∑ d : Fin 128, x (ix2 n d) * s (ix2 j d)

/-- The score of row `n`. -/
def score (x : (⟨2, ![N, 128]⟩ : Shape).Idx → EReal) (s : (⟨2, ![8192, 128]⟩ : Shape).Idx → EReal)
    (b : (⟨2, ![1, 8192]⟩ : Shape).Idx → EReal) (n : Fin N) : EReal :=
  max (Ideal.sqrt (max ((Finset.univ : Finset (Fin 8192)).fold min ⊤ (cand x s b n) + sqn x n) zero) - rad) zero

/-- The reference's arrangement — the root of each clamped squared distance, then the minimum — is the score. -/
theorem ref_arrangement (x : (⟨2, ![N, 128]⟩ : Shape).Idx → EReal) (s : (⟨2, ![8192, 128]⟩ : Shape).Idx → EReal)
    (b : (⟨2, ![1, 8192]⟩ : Shape).Idx → EReal) (n : Fin N) :
    max ((Finset.univ : Finset (Fin 8192)).fold min ⊤ (fun j =>
        Ideal.sqrt (max (((zero + sqn x n) + b (ix2 (0 : Fin 1) j)) - two * ∑ d : Fin 128, x (ix2 n d) * s (ix2 j d)) zero))
      - rad) zero = score x s b n := by
  have h0 : zero + sqn x n = sqn x n := by
    show Ideal.ofBits .f32 0x00000000#32 + sqn x n = sqn x n
    rw [Ideal.ofBits_zero_f32, zero_add]
  unfold score
  rw [Cert.LibMinFold.min_sqrt_law (zero + sqn x n) zero (fun j => b (ix2 (0 : Fin 1) j))
    (fun j => two * ∑ d : Fin 128, x (ix2 n d) * s (ix2 j d)), h0]
  rfl

end Cert.DistSpec

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.BodyValue.lean ====
/-
  The column a grid point stores, read entry by entry on the extended reals.

  Row `r` of the point's block of `x` against row `j` of `s` has the candidate `b2 j - 2 · Σ_d x(r,d) · s(j,d)`. Each of the eight
  lowerings of the accumulator takes the minimum over one block of 1024 rows `j`; the running minimum from +∞ of the eight block
  minima is the minimum over all 8192 rows. The stored entry is then `max (√(max (that minimum + Σ_d x(r,d)²) 0) - radius) 0`.
-/
import proofs.«135968_j87780541595761_2_alg».proof.Proof.BodyTerm
import proofs.«135968_j87780541595761_2_alg».proof.Proof.DistSpec
import proofs.«135968_j87780541595761_2_alg».proof.Proof.LibRowReduce
import proofs.«135968_j87780541595761_2_alg».proof.Proof.LibDot
import proofs.«135968_j87780541595761_2_alg».proof.Proof.LibColumnLayout
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.BodyValue

open Cert.KernelIdeal Cert.KernelIdeal.Gen Cert.KernelIdeal.BodyTerm Cert.DistSpec

/-! ## One block of candidates, at any float instance -/

section
variable {F : FTy → Type} [FloatOps F]

/-- The column of minima over one block of 1024 rows `sc` of `s` (with their squared norms `bc`) of the candidates
    `bc - 2 · (xb · scᵀ)`. -/
def chunkMin (xb : FVec F S1024x128 .bf16) (sc : Vec F S1024x128 .f32) (bc : Vec F S1x1024 .f32) : FVec F S1024x1 .f32 :=
  shapeCast S1024x1
    (multiReduction .minimumf [1] S1024
      (subf (broadcastTo S1024x1024 (shapeCast S1x1024 bc shapeCasts_S1x1024_S1x1024) broadcasts_S1x1024_S1024x1024)
        (mulf (broadcast S1024x1024 (Scalar.ofBits .f32 0x40000000#32))
          (matmul dot_S1024x128_S128x1024_S1024x1024_1_0_0_1_n_n none xb
            (transpose S128x1024 [1, 0] (truncf .bf16 sc bitsLt_bf16_f32) transposes_S1024x128_p1_0_S128x1024)
            (constant S1024x1024 .f32 0x00000000#32))))
      0x7F800000#32 reduces_S1024x1024_S1024 (.inl rfl) rfl)
    shapeCasts_S1024_S1024x1

/-! The stored payloads are the accumulator's initial fill, its lowerings by a block minimum, and re-castings to the same shape. -/

theorem pay3_eq : k0_pay3 (F := F) = shapeCast S1024x1 (broadcast S1024x1 (Scalar.ofBits .f32 0x7F800000#32)) shapeCasts_S1024x1_S1024x1 := rfl
theorem pay4_eq (v0 : Vec F S1024x128 .f32) (sc : Vec F S1024x128 .f32) (bc : Vec F S1x1024 .f32) (acc : Vec F S1024x1 .f32) :
    k0_pay4 v0 sc bc acc = shapeCast S1024x1 (minimumf acc (chunkMin (k0_pay2 v0) sc bc)) shapeCasts_S1024x1_S1024x1 := rfl
theorem pay5_eq (v4 : FVec F S1024x128 .bf16) (sc : Vec F S1024x128 .f32) (bc : Vec F S1x1024 .f32) (acc : Vec F S1024x1 .f32) :
    k0_pay5 v4 sc bc acc = shapeCast S1024x1 (minimumf acc (chunkMin v4 sc bc)) shapeCasts_S1024x1_S1024x1 := rfl
theorem pay6_eq (v4 : FVec F S1024x128 .bf16) (sc : Vec F S1024x128 .f32) (bc : Vec F S1x1024 .f32) (acc : Vec F S1024x1 .f32) :
    k0_pay6 v4 sc bc acc = shapeCast S1024x1 (minimumf acc (chunkMin v4 sc bc)) shapeCasts_S1024x1_S1024x1 := rfl
theorem pay7_eq (v4 : FVec F S1024x128 .bf16) (sc : Vec F S1024x128 .f32) (bc : Vec F S1x1024 .f32) (acc : Vec F S1024x1 .f32) :
    k0_pay7 v4 sc bc acc = shapeCast S1024x1 (minimumf acc (chunkMin v4 sc bc)) shapeCasts_S1024x1_S1024x1 := rfl
theorem pay8_eq (v4 : FVec F S1024x128 .bf16) (sc : Vec F S1024x128 .f32) (bc : Vec F S1x1024 .f32) (acc : Vec F S1024x1 .f32) :
    k0_pay8 v4 sc bc acc = minimumf acc (chunkMin v4 sc bc) := rfl
theorem pay9_eq (v : FVec F S1024x1 .f32) : k0_pay9 v = shapeCast S1024x1 v shapeCasts_S1024x1_S1024x1 := rfl
theorem pay10_eq (v4 : FVec F S1024x128 .bf16) (sc : Vec F S1024x128 .f32) (bc : Vec F S1x1024 .f32) (acc : Vec F S1024x1 .f32) :
    k0_pay10 v4 sc bc acc = shapeCast S1024x1 (minimumf acc (chunkMin v4 sc bc)) shapeCasts_S1024x1_S1024x1 := rfl
theorem pay11_eq (v4 : FVec F S1024x128 .bf16) (sc : Vec F S1024x128 .f32) (bc : Vec F S1x1024 .f32) :
    k0_pay11 v4 sc bc = chunkMin v4 sc bc := rfl
theorem pay12_eq (v150 : FVec F S1024x1 .f32) (acc : Vec F S1024x1 .f32) :
    k0_pay12 v150 acc = shapeCast S1024x1 (minimumf acc v150) shapeCasts_S1024x1_S1024x1 := rfl
theorem pay13_eq (v4 : FVec F S1024x128 .bf16) (sc : Vec F S1024x128 .f32) (bc : Vec F S1x1024 .f32) (acc : Vec F S1024x1 .f32) :
    k0_pay13 v4 sc bc acc = shapeCast S1024x1 (minimumf acc (chunkMin v4 sc bc)) shapeCasts_S1024x1_S1024x1 := rfl

end

/-! ## On the extended reals -/

/-- Row `k` of block `c` of `s`. -/
def cat (c : Fin 8) (k : Fin 1024) : Fin 8192 := ⟨1024 * c.val + k.val, by have := c.isLt; have := k.isLt; omega⟩

theorem cat_onto (j : Fin 8192) : ∃ c k, cat c k = j :=
  ⟨⟨j.val / 1024, by have := j.isLt; omega⟩, ⟨j.val % 1024, Nat.mod_lt _ (by decide)⟩, Fin.ext (by
    show 1024 * (j.val / 1024) + j.val % 1024 = j.val
    exact Nat.div_add_mod _ _)⟩

/-- The matrix unit's index facts for the product of a `[1024,128]` block with a `[128,1024]` block. -/
theorem dot_l0 (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem dot_l1 (j : S1024x1024.Idx) (q : dot_S1024x128_S128x1024_S1024x1024_1_0_0_1_n_n.contr.Idx) :
    (dot_S1024x128_S128x1024_S1024x1024_1_0_0_1_n_n.lhsIdx j q 1).val = (q ⟨0, by decide⟩).val :=
  dot_S1024x128_S128x1024_S1024x1024_1_0_0_1_n_n.lhsIdx_val_of_single rfl j q
theorem dot_r0 (j : S1024x1024.Idx) (q : dot_S1024x128_S128x1024_S1024x1024_1_0_0_1_n_n.contr.Idx) :
    (dot_S1024x128_S128x1024_S1024x1024_1_0_0_1_n_n.rhsIdx j q 0).val = (q ⟨0, by decide⟩).val :=
  dot_S1024x128_S128x1024_S1024x1024_1_0_0_1_n_n.rhsIdx_val_of_single rfl j q
theorem dot_r1 (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The row minima of a `[1024,1024]` matrix kept as a column, at row `r`: the fold of `min` from top over the row. -/
theorem rowMin_apply (v : FVec Ideal S1024x1024 .f32) (r : Fin 1024) (u : Fin 1) :
    shapeCast S1024x1 (multiReduction .minimumf [1] S1024 v 0x7F800000#32 reduces_S1024x1024_S1024 (.inl rfl) rfl)
        shapeCasts_S1024_S1024x1 (ix2 r u)
      = (Finset.univ : Finset (Fin 1024)).fold min ⊤ fun k => v (ix2 r k) := by
  refine (Cert.LibColumnLayout.shapeCast_a_a1_apply (a := 1024) _ shapeCasts_S1024_S1024x1 r u).trans ?_
  refine (Cert.LibRowReduce.multiReduction_min_row (φ := .f32) (a := 1024) (b := 1024) v (0x7F800000#32)
    reduces_S1024x1024_S1024 (.inl rfl) rfl r).trans ?_
  rw [top_eq]

/-- The row sums of a `[1024,128]` matrix kept as a column, at row `r`. -/
theorem rowSum_apply (v : FVec Ideal S1024x128 .f32) (r : Fin 1024) (u : Fin 1) :
    shapeCast S1024x1 (multiReduction .add [1] S1024 v 0x00000000#32 reduces_S1024x128_S1024 (.inl rfl) rfl)
        shapeCasts_S1024_S1024x1 (ix2 r u)
      = ∑ d : Fin 128, v (ix2 r d) := by
  refine (Cert.LibColumnLayout.shapeCast_a_a1_apply (a := 1024) _ shapeCasts_S1024_S1024x1 r u).trans ?_
  exact Cert.LibRowReduce.multiReduction_add_row (φ := .f32) (a := 1024) (b := 128) v (0x00000000#32)
    reduces_S1024x128_S1024 (.inl rfl) rfl r

/-- One candidate entry: the squared norm of row `k` less twice the inner product of row `r` with it. -/
theorem cand_entry (xb : FVec Ideal S1024x128 .bf16) (sc : Vec Ideal S1024x128 .f32) (bc : Vec Ideal S1x1024 .f32)
    (r k : Fin 1024) :
    subf (broadcastTo S1024x1024 (shapeCast S1x1024 bc shapeCasts_S1x1024_S1x1024) broadcasts_S1x1024_S1024x1024)
        (mulf (broadcast S1024x1024 (Scalar.ofBits .f32 0x40000000#32))
          (matmul dot_S1024x128_S128x1024_S1024x1024_1_0_0_1_n_n none xb
            (transpose S128x1024 [1, 0] (truncf .bf16 sc bitsLt_bf16_f32) transposes_S1024x128_p1_0_S128x1024)
            (constant S1024x1024 .f32 0x00000000#32))) (ix2 r k)
      = bc (ix2 (0 : Fin 1) k) - two * ∑ d : Fin 128, xb (ix2 r d) * sc (ix2 k d) := by
  show broadcastTo S1024x1024 (shapeCast S1x1024 bc shapeCasts_S1x1024_S1x1024) broadcasts_S1x1024_S1024x1024 (ix2 r k)
      - two * matmul dot_S1024x128_S128x1024_S1024x1024_1_0_0_1_n_n none xb
          (transpose S128x1024 [1, 0] (truncf .bf16 sc bitsLt_bf16_f32) transposes_S1024x128_p1_0_S128x1024)
          (constant S1024x1024 .f32 0x00000000#32) (ix2 r k) = _
  rw [broadcastTo_1b_ab_apply (a := 1024) (b := 1024), shapeCast_self]
  refine congrArg (fun y => bc (ix2 (0 : Fin 1) k) - two * y) ?_
  refine (Cert.LibDot.matmul_zero_apply (a := 1024) (k := 128) (b := 1024) dot_S1024x128_S128x1024_S1024x1024_1_0_0_1_n_n rfl rfl
    dot_l0 dot_l1 dot_r0 dot_r1 none xb _ r k).trans ?_
  refine Finset.sum_congr rfl fun d _ => congrArg (xb (ix2 r d) * ·) ?_
  exact transpose_ix2_apply (a := 1024) (b := 128) _ transposes_S1024x128_p1_0_S128x1024 d k

/-- A block minimum at row `r`: the fold of `min` from top over the block's 1024 candidates. -/
theorem chunkMin_apply (xb : FVec Ideal S1024x128 .bf16) (sc : Vec Ideal S1024x128 .f32) (bc : Vec Ideal S1x1024 .f32)
    (r : Fin 1024) (u : Fin 1) :
    chunkMin xb sc bc (ix2 r u)
      = (Finset.univ : Finset (Fin 1024)).fold min ⊤ fun k =>
          bc (ix2 (0 : Fin 1) k) - two * ∑ d : Fin 128, xb (ix2 r d) * sc (ix2 k d) := by
  unfold chunkMin
  refine (rowMin_apply _ r u).trans ?_
  exact congrArg (fun f => Finset.fold min ⊤ f (Finset.univ : Finset (Fin 1024))) (funext fun k => cand_entry xb sc bc r k)

end Cert.KernelIdeal.BodyValue

end
-- ==== Proof.BodyEntry.lean ====
/-
  The column a grid point stores is the score of each of its rows.

  The eight blocks of `s` are read at rows `1024 c + k`; each lowering of the accumulator takes the minimum over one block of
  candidates, and the running minimum from +∞ of the eight block minima is the minimum over all 8192 rows of `s`. Adding the row's
  squared norm, clamping, rooting, shifting by the radius and clamping again gives the score.
-/
import proofs.«135968_j87780541595761_2_alg».proof.Proof.BodyValue

set_option maxRecDepth 16384

noncomputable section

open Idealize.ShloMosaic Idealize.ShloMosaic.TcCoe Idealize.SL.Sem Idealize.ShloMosaic.ValueIdx

namespace Cert.KernelIdeal.BodyValue

open Cert.KernelIdeal Cert.KernelIdeal.Gen Cert.KernelIdeal.BodyTerm Cert.DistSpec

/-- Block `c` of `s`, read at `(k, d)`: row `1024 c + k` of `s`. -/
theorem sRows_apply (x1 : Vec Ideal S8192x128 .f32) (off : Nat)
    (h : ∀ a, (![off, 0] : Fin 2 → Nat) a + S1024x128.size a ≤ S8192x128.size a) (c : Fin 8) (hoff : off = 1024 * c.val)
    (k : Fin 1024) (d : Fin 128) : sRows x1 off h (ix2 k d) = x1 (ix2 (cat c k) d) := by
  subst hoff
  show x1 ((Rect.unit (s := S8192x128) ![1024 * c.val, 0] S1024x128.size h).emb (ix2 k d)) = x1 (ix2 (cat c k) d)
  refine congrArg x1 (funext fun a => Fin.ext ?_)
  match a with
  | ⟨0, _⟩ => show 1024 * c.val + 1 * k.val = 1024 * c.val + k.val; omega
  | ⟨1, _⟩ => show 0 + 1 * d.val = d.val; omega

/-- Block `c` of the squared norms, read at `(0, k)`: entry `1024 c + k`. -/
theorem bCols_apply (x2 : Vec Ideal S1x8192 .f32) (off : Nat)
    (h : ∀ a, (![0, off] : Fin 2 → Nat) a + S1x1024.size a ≤ S1x8192.size a) (c : Fin 8) (hoff : off = 1024 * c.val)
    (k : Fin 1024) : bCols x2 off h (ix2 (0 : Fin 1) k) = x2 (ix2 (0 : Fin 1) (cat c k)) := by
  subst hoff
  show x2 ((Rect.unit (s := S1x8192) ![0, 1024 * c.val] S1x1024.size h).emb (ix2 (0 : Fin 1) k)) = x2 (ix2 (0 : Fin 1) (cat c k))
  refine congrArg x2 (funext fun a => Fin.ext ?_)
  match a with
  | ⟨0, _⟩ => show 0 + 1 * 0 = 0; omega
  | ⟨1, _⟩ => show 1024 * c.val + 1 * k.val = 1024 * c.val + k.val; omega

/-- The minimum over block `c` at row `r`: the fold over the block's candidates. -/
theorem block_min (xb : FVec Ideal S1024x128 .bf16) (x1 : Vec Ideal S8192x128 .f32) (x2 : Vec Ideal S1x8192 .f32) (off : Nat)
    (h1 : ∀ a, (![off, 0] : Fin 2 → Nat) a + S1024x128.size a ≤ S8192x128.size a)
    (h2 : ∀ a, (![0, off] : Fin 2 → Nat) a + S1x1024.size a ≤ S1x8192.size a) (c : Fin 8) (hoff : off = 1024 * c.val)
    (r : Fin 1024) (u : Fin 1) :
    chunkMin xb (sRows x1 off h1) (bCols x2 off h2) (ix2 r u)
      = (Finset.univ : Finset (Fin 1024)).fold min ⊤ fun k => cand (N := 1024) xb x1 x2 r (cat c k) := by
  refine (chunkMin_apply xb (sRows x1 off h1) (bCols x2 off h2) r u).trans ?_
  refine congrArg (fun f => Finset.fold min ⊤ f (Finset.univ : Finset (Fin 1024))) (funext fun k => ?_)
  unfold cand
  rw [bCols_apply x2 off h2 c hoff k]
  refine congrArg (fun y => x2 (ix2 (0 : Fin 1) (cat c k)) - two * y) (Finset.sum_congr rfl fun d _ => ?_)
  rw [sRows_apply x1 off h1 c hoff k d]

/-- A lowering of the accumulator re-cast to its own shape, at an entry. -/
theorem lower_apply (acc cm : FVec Ideal S1024x1 .f32) (i : S1024x1.Idx) :
    shapeCast S1024x1 (minimumf acc cm) shapeCasts_S1024x1_S1024x1 i = min (acc i) (cm i) := by
  rw [shapeCast_self]; rfl

/-- A lowering of the accumulator, at an entry. -/
theorem min_apply (acc cm : FVec Ideal S1024x1 .f32) (i : S1024x1.Idx) : minimumf acc cm i = min (acc i) (cm i) := rfl

/-- The accumulator's initial fill is +∞ at every entry. -/
theorem inf_apply (i : S1024x1.Idx) : broadcast S1024x1 (Scalar.ofBits (F := Ideal) .f32 0x7F800000#32) i = ⊤ := top_eq

/-- The closing arithmetic at an entry. -/
theorem pay14_apply (v3 acc : FVec Ideal S1024x1 .f32) (i : S1024x1.Idx) :
    k0_pay14 v3 acc i = max (Ideal.sqrt (max (acc i + v3 i) zero) - rad) zero := rfl

/-- The row norms kept as a column, at row `r`. -/
theorem pay1_apply (x0 : Vec Ideal S1024x128 .f32) (r : Fin 1024) (u : Fin 1) : k0_pay1 x0 (ix2 r u) = sqn (N := 1024) x0 r :=
  rowSum_apply (mulf x0 x0) r u

/-- The rounding of the block of `x` on its way into the matrix unit is the identity on the extended reals. -/
theorem pay2_eq (x0 : Vec Ideal S1024x128 .f32) : k0_pay2 x0 = x0 := rfl

/-- THE STORED COLUMN: row `r` of it is the score of row `r` of the point's block of `x`. -/
theorem body_apply (x0 : Vec Ideal S1024x128 .f32) (x1 : Vec Ideal S8192x128 .f32) (x2 : Vec Ideal S1x8192 .f32)
    (r : Fin 1024) (u : Fin 1) : body x0 x1 x2 (ix2 r u) = score (N := 1024) x0 x1 x2 r := by
  unfold body
  rw [pay14_apply, pay1_apply, pay2_eq,
    pay13_eq, lower_apply, block_min x0 x1 x2 7168 _ _ 7 rfl,
    pay12_eq, lower_apply, pay11_eq, block_min x0 x1 x2 6144 _ _ 6 rfl,
    pay10_eq, lower_apply, block_min x0 x1 x2 5120 _ _ 5 rfl,
    pay9_eq, shapeCast_self, pay8_eq, min_apply, block_min x0 x1 x2 4096 _ _ 4 rfl,
    pay7_eq, lower_apply, block_min x0 x1 x2 3072 _ _ 3 rfl,
    pay6_eq, lower_apply, block_min x0 x1 x2 2048 _ _ 2 rfl,
    pay5_eq, lower_apply, block_min x0 x1 x2 1024 _ _ 1 rfl,
    pay4_eq, lower_apply, pay2_eq, block_min x0 x1 x2 0 _ _ 0 rfl,
    pay3_eq, shapeCast_self, inf_apply]
  unfold score
  rw [← Cert.LibMinFold.min_of_eight_blocks (cand (N := 1024) x0 x1 x2 r) cat cat_onto]

end Cert.KernelIdeal.BodyValue

end
-- ==== Proof.ScoreBlock.lean ====
/-
  The score of a row depends on `x` through that row only: the score of row `r` of the block of `x` that starts at row `1024 t` is the
  score of row `1024 t + r` of `x`.
-/
import proofs.«135968_j87780541595761_2_alg».proof.Proof.DistSpec

noncomputable section

namespace Cert.DistSpec

open Idealize.ShloMosaic Idealize.ShloMosaic.ValueIdx

theorem score_block (X : (⟨2, ![16384, 128]⟩ : Shape).Idx → EReal) (S : (⟨2, ![8192, 128]⟩ : Shape).Idx → EReal)
    (B : (⟨2, ![1, 8192]⟩ : Shape).Idx → EReal) (x0 : (⟨2, ![1024, 128]⟩ : Shape).Idx → EReal)
    (s' : (⟨2, ![8192, 128]⟩ : Shape).Idx → EReal) (b' : (⟨2, ![1, 8192]⟩ : Shape).Idx → EReal) (t : ℕ) (ht : t < 16)
    (h0 : ∀ (r : Fin 1024) (d : Fin 128), x0 (ix2 r d) = X (ix2 (⟨1024 * t + r.val, by have := r.isLt; omega⟩ : Fin 16384) d))
    (h1 : ∀ y, s' y = S y) (h2 : ∀ y, b' y = B y) (r : Fin 1024) :
    score x0 s' b' r = score X S B (⟨1024 * t + r.val, by have := r.isLt; omega⟩ : Fin 16384) := by
  obtain rfl : s' = S := funext h1
  obtain rfl : b' = B := funext h2
  unfold score sqn cand
  simp only [h0]

end Cert.DistSpec

end
-- ==== Proof.KernelArray.lean ====
/-
  From the blocks to the array: what the kernel's result array holds after the run.

  Grid point `t` is handed rows `1024 t … 1024 t + 1023` of `x`, the whole of `s` and the whole row vector of squared norms, and
  writes back rows `1024 t … 1024 t + 1023` of the `[16384, 1]` result: the scores of those rows. The sixteen blocks tile the
  result, so after the run entry `(n, 0)` is the score of row `n`.
-/
import proofs.«135968_j87780541595761_2_alg».proof.Proof.Gen.KernelIdeal.Frame
import proofs.«135968_j87780541595761_2_alg».proof.Proof.BodyEntry
import proofs.«135968_j87780541595761_2_alg».proof.Proof.ScoreBlock
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.BodyTerm Cert.KernelIdeal.BodyValue Cert.DistSpec

variable (m : (ℓ : Loc nD τ sig) → Buf (Elt Ideal) ℓ) (ρ : Dev nD → PrngReg)

/-- The column of scores, of the arrays as the region finds them. -/
def scoreCol (c : Dev nD) : S16384x1.Idx → EReal := fun i =>
  score (N := 16384) (V m c main_arg0) (V m c main_arg1) (V m c main_v2) (i 0)

/-- The printed index maps over the grid: the blocks of `x` and of the result move with the point, `s` and the norms stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 16 := lt_of_lt_of_eq t.isLt (N_0 : cfg0.N = 16)

/-- The block of `x` at point `t`. -/
theorem iblk0_apply (c : Dev nD) (t : Fin cfg0.N) (r : Fin 1024) (d : Fin 128) :
    iblk m c 0 t (ix2 r d)
      = V m c main_arg0 (ix2 (⟨1024 * t.val + r.val, by have := t_lt t; have := r.isLt; omega⟩ : Fin 16384) d) := by
  show V m c main_arg0 (((cfg0.win 0).blk t).view.emb (ix2 r d)) = _
  refine congrArg (V m c main_arg0) (funext fun a => Fin.ext ?_)
  obtain ⟨e0, e1, -⟩ := idx_facts t
  match a with
  | ⟨0, _⟩ => show win0_0.index t (0 : Fin 2) * 1024 + 1 * r.val = 1024 * t.val + r.val; omega
  | ⟨1, _⟩ => show win0_0.index t (1 : Fin 2) * 128 + 1 * d.val = d.val; omega

/-- The block of `s` at every point is `s`. -/
theorem iblk1_apply (c : Dev nD) (t : Fin cfg0.N) (y : S8192x128.Idx) : iblk m c 1 t y = V m c main_arg1 y := by
  show V m c main_arg1 (((cfg0.win 1).blk t).view.emb y) = _
  refine congrArg (V m c main_arg1) (funext fun a => Fin.ext ?_)
  obtain ⟨-, -, e0, e1, -⟩ := idx_facts t
  match a with
  | ⟨0, _⟩ => show win0_1.index t (0 : Fin 2) * 8192 + 1 * (y 0).val = (y 0).val; omega
  | ⟨1, _⟩ => show win0_1.index t (1 : Fin 2) * 128 + 1 * (y 1).val = (y 1).val; omega

/-- The block of squared norms at every point is the whole row vector. -/
theorem iblk2_apply (c : Dev nD) (t : Fin cfg0.N) (y : S1x8192.Idx) : iblk m c 2 t y = V m c main_v2 y := by
  show V m c main_v2 (((cfg0.win 2).blk t).view.emb y) = _
  refine congrArg (V m c main_v2) (funext fun a => Fin.ext ?_)
  obtain ⟨-, -, -, -, e0, e1, -⟩ := idx_facts t
  match a with
  | ⟨0, _⟩ => show win0_2.index t (0 : Fin 2) * 1 + 1 * (y 0).val = (y 0).val; omega
  | ⟨1, _⟩ => show win0_2.index t (1 : Fin 2) * 8192 + 1 * (y 1).val = (y 1).val; omega

/-- WHAT POINT `t` WRITES BACK is block `t` of the column of scores. -/
theorem flushed_eq (c : Dev nD) (t : Fin cfg0.N) :
    (dats m 0 c).flushed 3 t = ((cfg0.win 3).blk t).view.read (Elt Ideal) (scoreCol m c) := by
  show (cfg0.win 3).cut (grid0.coords t) ((dats m 0 c).after 3 t) = _
  rw [after0_3]
  unfold outsAt0
  rw [out_eq_body]
  funext y
  obtain ⟨r, u, rfl⟩ : ∃ (r : Fin 1024) (u : Fin 1), y = ix2 r u := ⟨y 0, y 1, eq_ix2 y⟩
  show body (iblk m c 0 t) (iblk m c 1 t) (iblk m c 2 t) (ix2 r u) = scoreCol m c (((cfg0.win 3).blk t).view.emb (ix2 r u))
  rw [body_apply]
  unfold scoreCol
  refine (score_block (V m c main_arg0) (V m c main_arg1) (V m c main_v2) (iblk m c 0 t) (iblk m c 1 t) (iblk m c 2 t) t.val (t_lt t)
    (iblk0_apply m c t) (iblk1_apply m c t) (iblk2_apply m c t) r).trans ?_
  refine congrArg (score (N := 16384) (V m c main_arg0) (V m c main_arg1) (V m c main_v2)) (Fin.ext ?_)
  obtain ⟨-, -, -, -, -, -, e0, -⟩ := idx_facts t
  show 1024 * t.val + r.val = win0_3.index t (0 : Fin 2) * 1024 + 1 * r.val
  omega

/-- An index of the result is in point `t`'s block iff each coordinate is in the block's range. -/
theorem mem_blk (t : Fin cfg0.N) (i : S16384x1.Idx) :
    i ∈ ((cfg0.win 3).blk t).view.set ↔ ∀ a : Fin 2, win0_3.index t a * S1024x1.size a ≤ (i a).val
      ∧ (i a).val < win0_3.index t a * S1024x1.size a + S1024x1.size a := by
  show i ∈ ((View.whole main_v3).slice (win0_3.rect t)).set ↔ _
  rw [View.set_slice_whole, Rect.mem_set_unit]
  exact Iff.rfl

/-- THE RESULT ARRAY of the region after the run: the column of scores. -/
theorem final3 (c : Dev nD) : (dats m 0 c).arrAt 3 cfg0.N = scoreCol m c :=
  (dats m 0 c).arrAt_eq_of_cover 3 (scoreCol m c) (fun t _ => flushed_eq m c t) fun i => by
    have hi0 : (i 0).val < 16384 := (i 0).isLt
    have hi1 : (i 1).val < 1 := (i 1).isLt
    have hN : cfg0.N = 16 := N_0
    refine ⟨⟨(i 0).val / 1024, by rw [hN]; omega⟩, flush0_3 _, ?_⟩
    rw [mem_blk]
    obtain ⟨-, -, -, -, -, -, e0, e1⟩ := idx_facts ⟨(i 0).val / 1024, by rw [hN]; omega⟩
    intro a
    match a with
    | ⟨0, _⟩ =>
      show win0_3.index _ (0 : Fin 2) * 1024 ≤ (i 0).val ∧ (i 0).val < win0_3.index _ (0 : Fin 2) * 1024 + 1024
      rw [e0]; dsimp only; omega
    | ⟨1, _⟩ =>
      show win0_3.index _ (1 : Fin 2) * 1 ≤ (i 1).val ∧ (i 1).val < win0_3.index _ (1 : Fin 2) * 1 + 1
      rw [e1]; omega

end Cert.KernelIdeal.KValue

end
-- ==== Proof.KernelRun.lean ====
/-
  The kernel's run, read: its result is the vector of scores.

  Before the region the host computes the row vector of squared norms of `s`'s rows (a product, a sum over the 128 columns, a
  re-laying as `[1, 8192]`); after it, the host re-lays the region's `[16384, 1]` column as a vector of length 16384. So after the
  run entry `n` of the result is the score of row `n` of `x` against `s` and those squared norms, and the arguments are unchanged.
-/
import proofs.«135968_j87780541595761_2_alg».proof.Proof.KernelArray
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.DistSpec

variable (m : (ℓ : Loc nD τ sig) → Buf (Elt Ideal) ℓ) (ρ : Dev nD → PrngReg)

/-- The squared norms of the rows of `s` as the host lays them out, a `[1, 8192]` row vector. -/
def norms (s : S8192x128.Idx → EReal) : S1x8192.Idx → EReal :=
  broadcastInDim S1x8192 ![1] bcast_S8192_S1x8192_1
    (Host.reduceAdd (F := Ideal) (mulf (F := Ideal) (φ := .f32) s s) (constant (F := Ideal) S_ .f32 0x00000000#32)
      reducesTo_S8192x128_S8192_d1 h_S_)

/-- The region finds that row vector in its third window's array. -/
theorem V_norms (c : Dev nD) : (V m c main_v2 : S1x8192.Idx → EReal) = norms (m ((c : Thread nD τ).loc main_arg1)) := by
  show StableHlo.after hostOps0 (fun b => m (c, b)) (Proc.devRef .tc main_v2) = _
  after_results
  rfl

/-- A `[a, 1]` column re-laid as a vector reads, at `i`, the column at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The vector of scores of the launch arrays. -/
def scores (c : Dev nD) : S16384.Idx → EReal := fun i =>
  score (N := 16384) (m ((c : Thread nD τ).loc main_arg0)) (m ((c : Thread nD τ).loc main_arg1))
    (norms (m ((c : Thread nD τ).loc main_arg1))) (i 0)

/-- The column the region leaves, in terms of the launch arrays. -/
theorem scoreCol_eq (c : Dev nD) (i : S16384x1.Idx) :
    scoreCol m c i = score (N := 16384) (m ((c : Thread nD τ).loc main_arg0)) (m ((c : Thread nD τ).loc main_arg1))
      (norms (m ((c : Thread nD τ).loc main_arg1))) (i 0) := by
  unfold scoreCol
  rw [V_norms m c, V_main_arg0 m c, V_main_arg1 m c]

/-- What the host's last line leaves in the result. -/
theorem tail_eq (c : Dev nD) :
    Pipeline.afterTail₀ cfgs (dats m) 0 (V0 m) [hostOps1] c main_v4 = scores m c := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v3) = scoreCol m c from
    (Pipeline.withArrays_arr spec0 launch0.win.arr_inj c _ _ 3).trans (final3 m c)]
  funext i
  rw [eq_ix1 i]
  refine (shapeCast_a1_a_apply (a := 16384) _ _ (i 0)).trans ?_
  exact scoreCol_eq m c _

/-- THE RUN: every weakly fair execution terminates with the result at the vector of scores and the arguments unchanged. -/
theorem run : θ_run defs (onTc (τ := τ) (main (F := Ideal))) ⟨m, fun _ => 0, ρ⟩ fun r => ∀ c : Dev nD,
      r.2.mem ((c.tc : Thread nD τ).loc main_v4) = scores m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference, read row by row on the extended reals.

  Entry `(n, j)` of the reference's distance matrix is `√(max (((0 + Σ_d x(n,d)²) + b (0, j)) - 2 · Σ_d x(n,d) · s(j,d)) 0)`, with `b` the
  row vector of the squared norms of `s`'s rows; the result at `n` is `max (min_j of these - radius) 0`, the minimum a fold of `min`
  from +∞ over the 8192 rows of `s`. By the distance law this is the score of row `n`.
-/
import proofs.«135968_j87780541595761_2_alg».proof.Proof.Gen.ReferenceIdeal.Read
import proofs.«135968_j87780541595761_2_alg».proof.Proof.DistSpec
import proofs.«135968_j87780541595761_2_alg».proof.Proof.LibRowReduce
import Idealize.ShloMosaic.PureOps.Ideal.Laws
import Idealize.ShloMosaic.Lib.ValueIdx

set_option maxRecDepth 16384

noncomputable section

namespace Cert.ReferenceIdeal.RefValue

open Cert.ReferenceIdeal Cert.ReferenceIdeal.Gen Cert.ReferenceIdeal.Read Cert.DistSpec
open Idealize.ShloMosaic Idealize.ShloMosaic.ValueIdx

variable (x : (⟨S16384x128, .f32⟩ : BufTy).Contents (Elt Ideal)) (s : (⟨S8192x128, .f32⟩ : BufTy).Contents (Elt Ideal))

/-- The host's minimum over the rows of `s`, at row `n` of the distance matrix: the fold of `min` from the initial value. -/
theorem hostRowMin_apply (v : S16384x8192.Idx → EReal) (init : S_.Idx → EReal) (n : Fin 16384) :
    Host.reduce (FloatOps.minimumf (F := Ideal) (φ := .f32)) v init reducesTo_S16384x8192_S16384_d1 h_S_ (ix1 n)
      = (Finset.univ : Finset (Fin 8192)).fold min (init (Shape.Idx.first h_S_)) fun j => v (ix2 n j) := by
  refine (Host.reduce_eq_fold_single (FloatOps.minimumf (F := Ideal) (φ := .f32)) v init reducesTo_S16384x8192_S16384_d1
    (by decide) h_S_ (ix1 n)).trans ?_
  exact congrArg (fun f => Finset.fold min (init (Shape.Idx.first h_S_)) f (Finset.univ : Finset (Fin 8192)))
    (funext fun j => congrArg v (Cert.LibRowReduce.lift_row (a := 16384) (b := 8192) _ n j))

/-- One entry of the distance matrix. -/
theorem dist_entry (n : Fin 16384) (j : Fin 8192) :
    val_main_v16 (F := Ideal) x s (ix2 n j)
      = Ideal.sqrt (max (((zero + sqn (N := 16384) x n) + val_main_v5 (F := Ideal) s (ix2 (0 : Fin 1) j))
          - two * ∑ d : Fin 128, x (ix2 n d) * s (ix2 j d)) zero) := by
  have i1 : ∀ k : Fin 128, idx_main_v1 (idx_main_v2 (idx_main_v6 (ix2 n j))) k = ix2 n k := fun k =>
    funext fun a => Fin.ext (by match a with | ⟨0, _⟩ => rfl | ⟨1, _⟩ => rfl)
  have i7 : idx_main_v7 (ix2 n j) = ix2 (0 : Fin 1) j :=
    funext fun a => Fin.ext (by match a with | ⟨0, _⟩ => rfl | ⟨1, _⟩ => rfl)
  have il : ∀ k : Fin 128, lidx_main_v10 (ix2 n j) k = ix2 n k := fun k =>
    funext fun a => Fin.ext (by match a with | ⟨0, _⟩ => rfl | ⟨1, _⟩ => rfl)
  have ir : ∀ k : Fin 128, idx_main_v9 (ridx_main_v10 (ix2 n j) k) = ix2 j k := fun k =>
    funext fun a => Fin.ext (by match a with | ⟨0, _⟩ => rfl | ⟨1, _⟩ => rfl)
  rw [val_main_v16_apply, val_main_v15_apply, val_main_v13_apply, val_main_v8_apply, val_main_v6_apply, val_main_v2_apply,
    val_main_v1_apply, val_main_v7_apply, val_main_v12_apply, val_main_v11_apply, val_main_v10_apply, val_main_v14_apply,
    val_main_cst_2_apply, val_main_cst_1_apply, val_main_cst_apply]
  simp only [val_main_v0_apply, val_main_v9_apply, i1, i7, il, ir, Ideal.hostUnary_sqrt_def, Ideal.maximumf_def,
    Ideal.subf_def, Ideal.addf_def, Ideal.mulf_def, Ideal.ofBits_def]
  rfl

/-- The row minimum of the distance matrix. -/
theorem min_entry (n : Fin 16384) :
    val_main_v17 (F := Ideal) x s (ix1 n)
      = (Finset.univ : Finset (Fin 8192)).fold min ⊤ fun j =>
          Ideal.sqrt (max (((zero + sqn (N := 16384) x n) + val_main_v5 (F := Ideal) s (ix2 (0 : Fin 1) j))
            - two * ∑ d : Fin 128, x (ix2 n d) * s (ix2 j d)) zero) := by
  unfold val_main_v17
  refine (hostRowMin_apply _ _ n).trans ?_
  rw [show (val_main_cst_3 (F := Ideal)) (Shape.Idx.first h_S_) = ⊤ from top_eq]
  exact congrArg (fun f => Finset.fold min ⊤ f (Finset.univ : Finset (Fin 8192))) (funext fun j => dist_entry x s n j)

/-- The reference's result at `n` is the score of row `n`, the squared norms of `s`'s rows as the reference computes them. -/
theorem score_entry (n : Fin 16384) :
    val_main_v21 (F := Ideal) x s (ix1 n) = score (N := 16384) x s (val_main_v5 (F := Ideal) s) n := by
  rw [← ref_arrangement, val_main_v21_apply, val_main_v19_apply, val_main_v20_apply, val_main_v18_apply,
    val_main_cst_5_apply, val_main_cst_4_apply, min_entry x s n]
  rfl

/-- The reference's result array. -/
theorem result_eq :
    val_main_v21 (F := Ideal) x s = fun i => score (N := 16384) x s (val_main_v5 (F := Ideal) s) (i 0) :=
  funext fun i => (congrArg (val_main_v21 (F := Ideal) x s) (eq_ix1 i)).trans (score_entry x s (i 0))

end Cert.ReferenceIdeal.RefValue

end
-- ==== Proof.lean ====
/-
  Nearest-neighbour anomaly scores: for every row `n` of `x` (16384 rows of 128 numbers) the distance to the nearest of the 8192
  rows of `s`, less a radius, clamped at zero.

  The reference takes, for each pair `(n, j)`, the clamped squared distance `|x_n|² + |s_j|² - 2 x_n·s_j`, its root, then the minimum
  over `j`. The kernel works block by block: a grid point holds 1024 rows of `x`, lowers a column accumulator from +∞ by the
  minimum of `|s_j|² - 2 x_n·s_j` over each of eight blocks of 1024 rows of `s`, and only then adds `|x_n|²`, clamps and takes
  the root. On the extended reals the two agree: `y ↦ √(max (y + a) 0)` is monotone, so it commutes with the minimum of a nonempty
  finite family; the running minimum of the eight block minima is the minimum over all rows of `s`; and the sum is commutative
  and associative. Roundings to bf16 on the way into the matrix unit are the identity, and the matrix unit's product and the
  host's are the same sums. No finiteness of the inputs is used.

  The three frames are the generated ones (the reference's is its generated run with the result dropped); the idealization
  rewrote nothing, so `preserves` is trivial; `algebraic` puts the kernel's run (the result array at the vector of scores) beside
  the reference's run (its composed term, read row by row as the same scores).
-/
import proofs.«135968_j87780541595761_2_alg».proof.Defs
import proofs.«135968_j87780541595761_2_alg».proof.Proof.Gen.Kernel
import proofs.«135968_j87780541595761_2_alg».proof.Proof.Gen.Kernel.Skeleton
import proofs.«135968_j87780541595761_2_alg».proof.Proof.Gen.Kernel.Launch
import proofs.«135968_j87780541595761_2_alg».proof.Proof.Gen.Kernel.Points
import proofs.«135968_j87780541595761_2_alg».proof.Proof.Gen.Kernel.Frame
import proofs.«135968_j87780541595761_2_alg».proof.Proof.Gen.KernelIdeal
import proofs.«135968_j87780541595761_2_alg».proof.Proof.Gen.KernelIdeal.Skeleton
import proofs.«135968_j87780541595761_2_alg».proof.Proof.Gen.KernelIdeal.Launch
import proofs.«135968_j87780541595761_2_alg».proof.Proof.Gen.KernelIdeal.Points
import proofs.«135968_j87780541595761_2_alg».proof.Proof.Gen.KernelIdeal.Frame
import proofs.«135968_j87780541595761_2_alg».proof.Proof.Gen.ReferenceIdeal
import proofs.«135968_j87780541595761_2_alg».proof.Proof.Gen.ReferenceIdeal.Run
import proofs.«135968_j87780541595761_2_alg».proof.Proof.Gen.ReferenceIdeal.Read
import proofs.«135968_j87780541595761_2_alg».proof.Proof.Gen.Pre_finite_inputs
import proofs.«135968_j87780541595761_2_alg».proof.Proof.KernelRun
import proofs.«135968_j87780541595761_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The squared norms of the rows of `s` are one term in both programs. -/
theorem norms_eq (s : Cert.KernelIdeal.S8192x128.Idx → EReal) :
    Cert.ReferenceIdeal.Read.val_main_v5 (F := Ideal) s = Cert.KernelIdeal.KValue.norms s := rfl

/-- Both programs end with the vector of scores of arguments that agree. -/
theorem algebraic : Cert.algebraic_KernelIdeal_ReferenceIdeal := by
  intro m ρ m' ρ' _ hagree
  refine ⟨fun c => Cert.KernelIdeal.KValue.scores m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq, norms_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
